-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S64x192 : Shape := ⟨2, ![64, 192]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S64x192 : S_.BroadcastsInDim S64x192 (![] : Fin 0 → Fin S64x192.rank)
  reducesTo_S64x192_S_d0_1 : S64x192.ReducesTo [0, 1] S_

variable [Facts]

def fn {F : FTy → Type} [FloatOps F] (main_arg0 : FVec F S16384x64 .f32) (main_arg1 : FVec F S64x192 .f32) (main_arg2 : FVec F S64x192 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S64x192 .f32 := Host.absf main_arg1
  let main_cst_0 : FVec F S_ .f32 := constant S_ .f32 0x7F800000#32
  let main_v5 : FVec F S64x192 .f32 := broadcastInDim S64x192 ![] bcast_S_S64x192 main_cst_0
  let main_v6 : IVec S64x192 1 := cmpf .olt main_v4 main_v5
  let main_c_1 : IVec S_ 1 := constantI S_ 1 1#1
  let main_v7 : IVec S_ 1 := (fun x v => Host.reduce IntOp.andi x v reducesTo_S64x192_S_d0_1 h_S_) main_v6 main_c_1
  let main_v8 : IVec S_ 1 := andi main_v3 main_v7
  let main_v9 : FVec F S64x192 .f32 := Host.absf main_arg2
  let main_cst_2 : FVec F S_ .f32 := constant S_ .f32 0x7F800000#32
  let main_v10 : FVec F S64x192 .f32 := broadcastInDim S64x192 ![] bcast_S_S64x192 main_cst_2
  let main_v11 : IVec S64x192 1 := cmpf .olt main_v9 main_v10
  let main_c_3 : IVec S_ 1 := constantI S_ 1 1#1
  let main_v12 : IVec S_ 1 := (fun x v => Host.reduce IntOp.andi x v reducesTo_S64x192_S_d0_1 h_S_) main_v11 main_c_3
  let main_v13 : IVec S_ 1 := andi main_v8 main_v12
  main_v13
-- ==== Kernel.lean ====
abbrev S16384x64 : Shape := ⟨2, ![16384, 64]⟩
abbrev S64x192 : Shape := ⟨2, ![64, 192]⟩
abbrev S16384x64x192 : Shape := ⟨3, ![16384, 64, 192]⟩
abbrev S256x64 : Shape := ⟨2, ![256, 64]⟩
abbrev S256x64x192 : Shape := ⟨3, ![256, 64, 192]⟩
abbrev S256x64x1 : Shape := ⟨3, ![256, 64, 1]⟩
abbrev S1x64x192 : Shape := ⟨3, ![1, 64, 192]⟩

abbrev nBuf : Space → Nat
  | .hbm => 4
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S64x192, .f32⟩
  | .hbm, ⟨2, _⟩ => ⟨S64x192, .f32⟩
  | .hbm, ⟨3, _⟩ => ⟨S16384x64x192, .f32⟩
  | .local _ .vmem, ⟨0, _⟩ => ⟨S256x64, .f32⟩
  | .local _ .vmem, ⟨1, _⟩ => ⟨S256x64, .f32⟩
  | .local _ .vmem, ⟨2, _⟩ => ⟨S64x192, .f32⟩
  | .local _ .vmem, ⟨3, _⟩ => ⟨S64x192, .f32⟩
  | .local _ .vmem, ⟨4, _⟩ => ⟨S256x64x192, .f32⟩
  | .local _ .vmem, ⟨5, _⟩ => ⟨S256x64x192, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x64_S256x64_0_0 : ∀ a, (![0, 0] : Fin 2 → Nat) a + S256x64.size a ≤ S256x64.size a
  h_S256x64 : 0 < S256x64.numel
  inb_S64x192_S64x192_0_0 : ∀ a, (![0, 0] : Fin 2 → Nat) a + S64x192.size a ≤ S64x192.size a
  h_S64x192 : 0 < S64x192.numel
  shapeCasts_S256x64_S256x64x1 : S256x64.ShapeCasts S256x64x1
  shapeCasts_S64x192_S1x64x192 : S64x192.ShapeCasts S1x64x192
  broadcasts_S256x64x1_S256x64x192 : S256x64x1.Broadcasts S256x64x192
  broadcasts_S1x64x192_S256x64x192 : S1x64x192.Broadcasts S256x64x192
  inb_S256x64x192_S256x64x192_0_0_0 : ∀ a, (![0, 0, 0] : Fin 3 → Nat) a + S256x64x192.size a ≤ S256x64x192.size a
  h_S256x64x192 : 0 < S256x64x192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S16384x64.size a
  hwx0_0 : ∀ i : grid0.Coords, EltTy.bits .f32 = 32 ∨ (Rect.block (s := S16384x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x192.size a ≤ S64x192.size a
  hwx0_2 : ∀ i : grid0.Coords, EltTy.bits .f32 = 32 ∨ (Rect.block (s := S64x192) S64x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64x192.size a ≤ S16384x64x192.size a
  hwx0_3 : ∀ i : grid0.Coords, EltTy.bits .f32 = 32 ∨ (Rect.block (s := S16384x64x192) S256x64x192.size (cc0_transform_3 i) (hinb0_3 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x64x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x64 : Shape := ⟨2, ![16384, 64]⟩
abbrev S64x192 : Shape := ⟨2, ![64, 192]⟩
abbrev S16384x64x1 : Shape := ⟨3, ![16384, 64, 1]⟩
abbrev S1x64x192 : Shape := ⟨3, ![1, 64, 192]⟩
abbrev S16384x64x192 : Shape := ⟨3, ![16384, 64, 192]⟩

abbrev nBuf : Space → Nat
  | .hbm => 11
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S64x192, .f32⟩
  | .hbm, ⟨2, _⟩ => ⟨S64x192, .f32⟩
  | .hbm, ⟨3, _⟩ => ⟨S16384x64x1, .f32⟩
  | .hbm, ⟨4, _⟩ => ⟨S1x64x192, .f32⟩
  | .hbm, ⟨5, _⟩ => ⟨S16384x64x192, .f32⟩
  | .hbm, ⟨6, _⟩ => ⟨S16384x64x192, .f32⟩
  | .hbm, ⟨7, _⟩ => ⟨S16384x64x192, .f32⟩
  | .hbm, ⟨8, _⟩ => ⟨S1x64x192, .f32⟩
  | .hbm, ⟨9, _⟩ => ⟨S16384x64x192, .f32⟩
  | .hbm, ⟨10, _⟩ => ⟨S16384x64x192, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S16384x64_S16384x64x1_0_1 : S16384x64.BroadcastsInDim S16384x64x1 (![0, 1] : Fin 2 → Fin S16384x64x1.rank)
  bcast_S64x192_S1x64x192_1_2 : S64x192.BroadcastsInDim S1x64x192 (![1, 2] : Fin 2 → Fin S1x64x192.rank)
  bcast_S16384x64x1_S16384x64x192_0_1_2 : S16384x64x1.BroadcastsInDim S16384x64x192 (![0, 1, 2] : Fin 3 → Fin S16384x64x192.rank)
  bcast_S1x64x192_S16384x64x192_0_1_2 : S1x64x192.BroadcastsInDim S16384x64x192 (![0, 1, 2] : Fin 3 → Fin S16384x64x192.rank)

variable [Facts₀]

class Facts : Prop extends Facts₀ where

variable [Facts]
-- ==== Proof.Embedding.lean ====
/-
  The numerical-feature embedding as one function of its three arrays.

  A batch of 16384 rows carries 64 scalar features. Feature `f` has its own weight row `W[f, ·]` and bias row
  `b[f, ·]` of 192 embedding coordinates, and the embedding of the batch is

      out[p, f, d] = x[p, f] · W[f, d] + b[f, d].

  An entry of the result therefore depends on exactly one entry of each array: on the feature value at the
  entry's first two coordinates, and on the weight and the bias at its last two. No entry is summed with, or
  compared to, another, so the formula is meaningful over any float interpretation, the extended reals included,
  and it needs no hypothesis on the values.
-/
import Idealize.ShloMosaic.PureOps.Ideal
import Idealize.ShloMosaic.Lib.ValueIdx

noncomputable section

namespace Cert.Embedding

open Idealize.ShloMosaic Idealize.ShloMosaic.ValueIdx

variable {F : FTy → Type} [FloatOps F]

/-- The batch of scalar features: 16384 rows of 64 features. -/
abbrev Feats : Shape := ⟨2, ![16384, 64]⟩
/-- The per-feature rows of weights, and of biases: 64 features by 192 embedding coordinates. -/
abbrev Rows : Shape := ⟨2, ![64, 192]⟩
/-- The embedded batch: 16384 rows, 64 features, 192 embedding coordinates. -/
abbrev Embedded : Shape := ⟨3, ![16384, 64, 192]⟩

/-- The feature value an entry `(p, f, d)` of the result scales: the one at `(p, f)`. -/
abbrev featureAt (i : Embedded.Idx) : Feats.Idx := ix2 (i 0) (i 1)

/-- The weight, and the bias, an entry `(p, f, d)` of the result uses: the one at `(f, d)`. -/
abbrev rowAt (i : Embedded.Idx) : Rows.Idx := ix2 (i 1) (i 2)

/-- `out[p, f, d] = x[p, f] · W[f, d] + b[f, d]`. -/
def embed (x : Feats.Idx → Elt F .f32) (w b : Rows.Idx → Elt F .f32) : Embedded.Idx → Elt F .f32 :=
  fun i => FloatOps.addf (FloatOps.mulf (x (featureAt i)) (w (rowAt i))) (b (rowAt i))

/-- The embedding at an entry, spelt out. -/
theorem embed_apply (x : Feats.Idx → Elt F .f32) (w b : Rows.Idx → Elt F .f32) (i : Embedded.Idx) :
    embed x w b i = FloatOps.addf (FloatOps.mulf (x (featureAt i)) (w (rowAt i))) (b (rowAt i)) := rfl

end Cert.Embedding

end
-- ==== Proof.ReferenceEmbeds.lean ====
/-
  The reference computes the embedding.

  The reference spells `x[:, :, None] * W[None, :, :] + b[None, :, :]` as eight array operations: each operand is
  first given a unit axis and then repeated along it up to the full shape [16384, 64, 192], and the three full-size
  arrays are multiplied and added entry by entry. Repeating along a unit axis only forgets a coordinate, so at an
  entry `(p, f, d)` the repeated feature array reads `x[p, f]` and the repeated weight and bias arrays read
  `W[f, d]` and `b[f, d]`: the product plus the bias there is the embedding's entry.
-/
import proofs.«115588_j55997783605810_2_alg».proof.Proof.Gen.ReferenceIdeal.Read
import proofs.«115588_j55997783605810_2_alg».proof.Proof.Embedding

noncomputable section

namespace Cert.ReferenceIdeal.Embeds

open Cert.ReferenceIdeal Cert.ReferenceIdeal.Read Idealize.ShloMosaic Cert.Embedding

variable {F : FTy → Type} [FloatOps F]

/-- Through the two repetitions of the feature array, entry `(p, f, d)` reads the feature value at `(p, f)`. -/
theorem feature_index (i : S16384x64x192.Idx) : idx_main_v0 (idx_main_v2 i) = featureAt i := by
  funext a
  match a with
  | ⟨0, _⟩ => rfl
  | ⟨1, _⟩ => rfl

/-- Through the two repetitions of the weight array, entry `(p, f, d)` reads the weight at `(f, d)`. -/
theorem weight_index (i : S16384x64x192.Idx) : idx_main_v1 (idx_main_v3 i) = rowAt i := by
  funext a
  match a with
  | ⟨0, _⟩ => rfl
  | ⟨1, _⟩ => rfl

/-- Through the two repetitions of the bias array, entry `(p, f, d)` reads the bias at `(f, d)`. -/
theorem bias_index (i : S16384x64x192.Idx) : idx_main_v5 (idx_main_v6 i) = rowAt i := by
  funext a
  match a with
  | ⟨0, _⟩ => rfl
  | ⟨1, _⟩ => rfl

/-- The reference's last stage, as a function of the three argument arrays, is the embedding. -/
theorem result_is_embedding (x0 : (⟨S16384x64, .f32⟩ : BufTy).Contents (Elt F))
    (x1 x2 : (⟨S64x192, .f32⟩ : BufTy).Contents (Elt F)) :
    val_main_v7 (F := F) x0 x1 x2 = embed (F := F) x0 x1 x2 := by
  funext i
  rw [val_main_v7_apply, val_main_v4_apply, val_main_v2_apply, val_main_v0_apply, val_main_v3_apply,
    val_main_v1_apply, val_main_v6_apply, val_main_v5_apply, feature_index, weight_index, bias_index]
  rfl

end Cert.ReferenceIdeal.Embeds

end
-- ==== Proof.KernelEmbeds.lean ====
/-
  The kernel computes the embedding, 256 batch rows at a time.

  The grid has 64 points. Point `t` is handed rows `256·t … 256·t + 255` of the feature array, the whole weight
  array and the whole bias array, and writes rows `256·t … 256·t + 255` of the result. On its block the body gives
  each of the three a unit axis, repeats it along that axis up to [256, 64, 192], and multiplies and adds entry by
  entry; so entry `(q, f, d)` of the block is `xblock[q, f] · W[f, d] + b[f, d]`, and since `xblock[q, f]` is
  `x[256·t + q, f]`, that is the embedding's entry `(256·t + q, f, d)`: what point `t` writes back is block `t`
  of the embedding. Row `r` of the result lies in the block of point `r / 256`, so the 64 blocks cover the result
  array, which therefore ends holding the embedding of the argument arrays.
-/
import proofs.«115588_j55997783605810_2_alg».proof.Proof.Gen.KernelIdeal.Value
import proofs.«115588_j55997783605810_2_alg».proof.Proof.Embedding
import Idealize.ShloMosaic.Lib.Pipeline.Value

noncomputable section

namespace Cert.KernelIdeal.Embeds

open Cert.KernelIdeal Cert.KernelIdeal.Gen Cert.KernelIdeal.Value Idealize.ShloMosaic Idealize.ShloMosaic.TcCoe Idealize.SL.Sem
open Idealize.ShloMosaic.Pipeline (Dat)
open Cert.Embedding

variable {F : FTy → Type} [FloatOps F]
variable (m : (ℓ : Loc nD τ sig) → Buf (Elt F) ℓ) (ρ : Dev nD → PrngReg)

/-- The zero offsets of a whole-block access, as a constant function. -/
theorem zero_offsets : (![0, 0] : Fin 2 → Nat) = fun _ => 0 := funext fun a => by fin_cases a <;> rfl

/-- Where each array's block sits at point `t`: the feature block and the result block at block row `t`, the
    weights and the biases always at their one block. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What the body leaves in the result's block, for any three loaded blocks: at entry `(q, f, d)` the product of
    the feature block's `(q, f)` and the weights' `(f, d)`, plus the biases' `(f, d)`. -/
theorem body_block (P0 : Vec F S256x64 .f32) (P1 P2 : Vec F S64x192 .f32) : out0_3 P0 P1 P2 = E3 P0 P1 P2 := by
  unfold out0_3
  simp only [View.ld_unit_zero (S := S256x64) zero_offsets, View.ld_unit_zero (S := S64x192) zero_offsets]
  exact funext (canon3_eq P0 P1 P2)

/-- What point `t` writes back is block `t` of the embedding of the argument arrays. -/
theorem flushed_is_block (c : Dev nD) (t : Fin cfg0.N) :
    (dats m 0 c).flushed 3 t
      = ((cfg0.win 3).blk t).view.read (Elt F) (embed (F := F) (V m c main_arg0) (V m c main_arg1) (V m c main_arg2)) := by
  rw [flushed3, body_block]
  obtain ⟨x0, x1, w0, w1, b0, b1, o0, o1, o2⟩ := block_positions t
  funext j
  have hj0 : (j 0).val < 256 := (j 0).isLt
  have hj1 : (j 1).val < 64 := (j 1).isLt
  have hj2 : (j 2).val < 192 := (j 2).isLt
  show FloatOps.addf (FloatOps.mulf (V m c main_arg0 (((cfg0.win 0).blk t).view.emb (ix3_0 j)))
        (V m c main_arg1 (((cfg0.win 1).blk t).view.emb (ix3_1 j)))) (V m c main_arg2 (((cfg0.win 2).blk t).view.emb (ix3_2 j)))
      = FloatOps.addf (FloatOps.mulf (V m c main_arg0 (featureAt (((cfg0.win 3).blk t).view.emb j)))
        (V m c main_arg1 (rowAt (((cfg0.win 3).blk t).view.emb j)))) (V m c main_arg2 (rowAt (((cfg0.win 3).blk t).view.emb j)))
  have hx : ((cfg0.win 0).blk t).view.emb (ix3_0 j) = featureAt (((cfg0.win 3).blk t).view.emb j) := by
    funext a; apply Fin.ext
    match a with
    | ⟨0, _⟩ => show win0_0.index t (0 : Fin 2) * 256 + 1 * (j 0).val = win0_3.index t (0 : Fin 3) * 256 + 1 * (j 0).val; omega
    | ⟨1, _⟩ => show win0_0.index t (1 : Fin 2) * 64 + 1 * (j 1).val = win0_3.index t (1 : Fin 3) * 64 + 1 * (j 1).val; omega
  have hw : ((cfg0.win 1).blk t).view.emb (ix3_1 j) = rowAt (((cfg0.win 3).blk t).view.emb j) := by
    funext a; apply Fin.ext
    match a with
    | ⟨0, _⟩ => show win0_1.index t (0 : Fin 2) * 64 + 1 * (j 1).val = win0_3.index t (1 : Fin 3) * 64 + 1 * (j 1).val; omega
    | ⟨1, _⟩ => show win0_1.index t (1 : Fin 2) * 192 + 1 * (j 2).val = win0_3.index t (2 : Fin 3) * 192 + 1 * (j 2).val; omega
  have hb : ((cfg0.win 2).blk t).view.emb (ix3_2 j) = rowAt (((cfg0.win 3).blk t).view.emb j) := by
    funext a; apply Fin.ext
    match a with
    | ⟨0, _⟩ => show win0_2.index t (0 : Fin 2) * 64 + 1 * (j 1).val = win0_3.index t (1 : Fin 3) * 64 + 1 * (j 1).val; omega
    | ⟨1, _⟩ => show win0_2.index t (1 : Fin 2) * 192 + 1 * (j 2).val = win0_3.index t (2 : Fin 3) * 192 + 1 * (j 2).val; omega
  rw [hx, hw, hb]

/-- An entry of the result array is in point `t`'s block iff each of its coordinates is in the block's range. -/
theorem mem_block (t : Fin cfg0.N) (i : S16384x64x192.Idx) :
    i ∈ ((cfg0.win 3).blk t).view.set ↔ ∀ a : Fin 3, win0_3.index t a * S256x64x192.size a ≤ (i a).val
      ∧ (i a).val < win0_3.index t a * S256x64x192.size a + S256x64x192.size a := by
  show i ∈ ((View.whole main_v0).slice (win0_3.rect t)).set ↔ _
  rw [View.set_slice_whole, Rect.mem_set_unit]
  exact Iff.rfl

/-- The 64 blocks cover the result array: row `r` is in the block of point `r / 256`. -/
theorem blocks_cover (i : S16384x64x192.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hi2 : (i 2).val < 192 := (i 2).isLt
  obtain ⟨t, ht⟩ : ∃ t : Fin cfg0.N, t.val = (i 0).val / 256 :=
    ⟨⟨(i 0).val / 256, by rw [show cfg0.N = 64 from N_0]; omega⟩, rfl⟩
  obtain ⟨x0, x1, w0, w1, b0, b1, o0, o1, o2⟩ := block_positions t
  refine ⟨t, flush0_3 t, ?_⟩
  rw [mem_block]
  intro a
  match a with
  | ⟨0, _⟩ => show win0_3.index t (0 : Fin 3) * 256 ≤ (i 0).val ∧ (i 0).val < win0_3.index t (0 : Fin 3) * 256 + 256; omega
  | ⟨1, _⟩ => show win0_3.index t (1 : Fin 3) * 64 ≤ (i 1).val ∧ (i 1).val < win0_3.index t (1 : Fin 3) * 64 + 64; omega
  | ⟨2, _⟩ => show win0_3.index t (2 : Fin 3) * 192 ≤ (i 2).val ∧ (i 2).val < win0_3.index t (2 : Fin 3) * 192 + 192; omega

/-- After the run the result array is the embedding of the argument arrays. -/
theorem result_array (c : Dev nD) :
    (dats m 0 c).arrAt 3 cfg0.N = embed (F := F) (V m c main_arg0) (V m c main_arg1) (V m c main_arg2) :=
  (dats m 0 c).arrAt_eq_of_cover 3 (embed (F := F) (V m c main_arg0) (V m c main_arg1) (V m c main_arg2))
    (fun t _ => flushed_is_block m c t) blocks_cover

/-- The kernel's run, read: every weakly fair execution ends with the result array at the embedding of the argument
    arrays as launched, and the argument arrays unchanged. -/
theorem run : θ_run defs (onTc (τ := τ) (main (F := F))) ⟨m, fun _ => 0, ρ⟩ fun r => ∀ c : Dev nD,
      r.2.mem ((c : Thread nD τ).loc main_v0)
        = embed (F := F) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (run_blocks m ρ)

end Cert.KernelIdeal.Embeds

end
-- ==== Proof.lean ====
/-
  The kernel and its reference compute the same numerical-feature embedding

      out[p, f, d] = x[p, f] · W[f, d] + b[f, d]      (p < 16384, f < 64, d < 192).

  The kernel walks the batch in 64 blocks of 256 rows; on each block it repeats the feature block along a new last
  axis and the weights and biases along a new first axis, multiplies and adds entry by entry, and writes the block
  of the result back. The reference does the same repetitions on the whole arrays at once. Both therefore leave, at
  every entry, the product of one feature value and one weight plus one bias — the same three array entries on
  both sides, combined by the same two operations in the same order. Nothing is re-associated or distributed, so
  the two results agree on all extended reals and the finiteness of the inputs is never used.

  The three frames are the generated ones (the reference's is its generated run with the result dropped), and the
  idealization rewrote nothing, so there is nothing to preserve.
-/
import proofs.«115588_j55997783605810_2_alg».proof.Defs
import proofs.«115588_j55997783605810_2_alg».proof.Proof.Gen.Kernel
import proofs.«115588_j55997783605810_2_alg».proof.Proof.Gen.Kernel.Skeleton
import proofs.«115588_j55997783605810_2_alg».proof.Proof.Gen.Kernel.Launch
import proofs.«115588_j55997783605810_2_alg».proof.Proof.Gen.Kernel.Points
import proofs.«115588_j55997783605810_2_alg».proof.Proof.Gen.Kernel.Frame
import proofs.«115588_j55997783605810_2_alg».proof.Proof.Gen.KernelIdeal
import proofs.«115588_j55997783605810_2_alg».proof.Proof.Gen.KernelIdeal.Skeleton
import proofs.«115588_j55997783605810_2_alg».proof.Proof.Gen.KernelIdeal.Launch
import proofs.«115588_j55997783605810_2_alg».proof.Proof.Gen.KernelIdeal.Points
import proofs.«115588_j55997783605810_2_alg».proof.Proof.Gen.KernelIdeal.Frame
import proofs.«115588_j55997783605810_2_alg».proof.Proof.Gen.ReferenceIdeal
import proofs.«115588_j55997783605810_2_alg».proof.Proof.Gen.Pre_finite_inputs
import proofs.«115588_j55997783605810_2_alg».proof.Proof.Gen.KernelIdeal.Value
import proofs.«115588_j55997783605810_2_alg».proof.Proof.Gen.ReferenceIdeal.Run
import proofs.«115588_j55997783605810_2_alg».proof.Proof.Gen.ReferenceIdeal.Read
import proofs.«115588_j55997783605810_2_alg».proof.Proof.Embedding
import proofs.«115588_j55997783605810_2_alg».proof.Proof.ReferenceEmbeds
import proofs.«115588_j55997783605810_2_alg».proof.Proof.KernelEmbeds
import Idealize.ShloMosaic.Adequacy
import Idealize.ShloMosaic.Init

noncomputable section

namespace Cert.Proof

open Idealize.ShloMosaic Idealize.ShloMosaic.TcCoe Idealize.SL.Sem

/-- The kernel as printed runs to the end without a fault and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals, from memories that agree on `x`, `W` and `b`, the kernel's result array and the
    reference's both end at the embedding of those arrays: the kernel's block by block over the batch, the
    reference's in one piece. -/
theorem algebraic : Cert.algebraic_KernelIdeal_ReferenceIdeal := by
  intro m ρ m' ρ' _ hagree
  refine ⟨_, Cert.KernelIdeal.Embeds.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Embeds.result_is_embedding,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
